-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x100000 : Shape := ⟨2, ![128, 100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x100000 .f32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x100000 : Shape := ⟨2, ![128, 100000]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩

abbrev nBuf : Space → Nat
  | .hbm => 7
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x100000, .f32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S1x128, .f32⟩
  | .hbm, ⟨6, _⟩ => ⟨S128x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v12 : BitVec 1 := Scalar.cmpi .eq arg0 c9_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S128x100000_S100000x128_1_0 : S128x100000.Transposes [1, 0] S100000x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  dot_S10000x128_S10000x128_S128x128_0_0_1_1_n_n_wf : DotDims.WF S10000x128 S10000x128 S128x128 [0] [0] [1] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)

variable [Facts₀]

def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_call0_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S128x100000 : Shape := ⟨2, ![128, 100000]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x100000, .f32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S128x128, .f32⟩
  | .hbm, ⟨6, _⟩ => ⟨S1x128, .f32⟩
  | .hbm, ⟨7, _⟩ => ⟨S128x128, .f32⟩
  | .hbm, ⟨8, _⟩ => ⟨S128x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  dot_S100000x128_S128x128_S100000x128_1_0_0_1_n_n_wf : DotDims.WF S100000x128 S128x128 S100000x128 [1] [0] [0] [1] [] []
  dot_S128x100000_S100000x128_S128x128_1_0_0_1_n_n_wf : DotDims.WF S128x100000 S100000x128 S128x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S128x100000_S100000x128_S128x128_1_0_0_1_n_n : DotDims S128x100000 S100000x128 S128x128 where
  lhsContracting := [1]
  rhsContracting := [0]
  lhsNonContracting := [0]
  rhsNonContracting := [1]
  lhsBatch := []
  rhsBatch := []
  wf := dot_S128x100000_S100000x128_S128x128_1_0_0_1_n_n_wf

class Facts : Prop extends Facts₀ where

variable [Facts]
-- ==== Proof.Pieces.lean ====
/-
  What one run of the body leaves behind, as values.

  The accumulator is a 128 × 128 scratch array that lives across the ten grid points. At the first point the body
  stores the zero array into it and then the zero array plus that point's block product; at every later point it
  stores what the point before left plus the point's block product; and at the last point it also stores into the
  output block the accumulator just written, contracted with `weight`, plus the bias row. Each of these is ONE
  covering store of the whole 128 × 128 array, so reading the stored pieces back gives the stored value itself,
  with every load replaced by the array it loads. The lemmas hold for any float values.
-/
import proofs.«130409_g69896297775420_cont_9to1_m_1307_20_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- FIRST POINT: the accumulator ends at the zero array plus the point's block product (the zero array is stored,
    read back, and the sum stored over it). -/
theorem acc_first (c : Dev nD) (i : grid0.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S128x128 .f32) (h6 : a6.IsWhole) (hc0 : cond0_0 i) (hc1 : ¬cond0_1 i)
    (x0 x1 : Vec F S10000x128 .f32) (x2 : Vec F S128x128 .f32) (x3 : Vec F S1x128 .f32) :
    sout0_A_0 c i a1 h1 a2 h2 a3 h3 a4 h4 a5 h5 a6 h6 hc0 hc1 x0 x1 x2 x3 = k0_pay2 (k0_pay1 (F := F)) x0 x1 := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S128x128) hz, View.readCov_unit_zero (S := S128x128) _ hz]
  simp only [View.readAt_eq_ld, h1.read_unread, h2.read_unread, View.ld_unit_zero (S := S10000x128) hz]

/-- A MIDDLE POINT: the accumulator ends at what the point before left plus the point's block product. -/
theorem acc_middle (c : Dev nD) (i : grid0.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S128x128 .f32) (h6 : a6.IsWhole) (hc0 : ¬cond0_0 i) (hc1 : ¬cond0_1 i)
    (x0 x1 : Vec F S10000x128 .f32) (x2 : Vec F S128x128 .f32) (x3 : Vec F S1x128 .f32) (xs0 : Vec F S128x128 .f32) :
    sout0_B_0 c i a1 h1 a2 h2 a3 h3 a4 h4 a5 h5 a6 h6 hc0 hc1 x0 x1 x2 x3 xs0 = k0_pay2 xs0 x0 x1 := by
  unfold sout0_B_0
  rw [View.read_writes_eq_canon _ _ _ (scover0_B_0 c i a1 h1 a2 h2 a3 h3 a4 h4 a5 h5 a6 h6 hc0 hc1 x0 x1 x2 x3 xs0)]
  unfold kernelRun0_B
  dsimp only
  rw [View.canon_unit_zero hz]
  simp only [View.readAt_eq_ld, h1.read_unread, h2.read_unread, h6.read_unread, View.ld_unit_zero (S := S10000x128) hz,
    View.ld_unit_zero (S := S128x128) hz]

/-- THE LAST POINT: the accumulator, likewise; -/
theorem acc_last (c : Dev nD) (i : grid0.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S128x128 .f32) (h6 : a6.IsWhole) (hc0 : ¬cond0_0 i) (hc1 : cond0_1 i)
    (x0 x1 : Vec F S10000x128 .f32) (x2 : Vec F S128x128 .f32) (x3 : Vec F S1x128 .f32) (xs0 : Vec F S128x128 .f32) :
    sout0_C_0 c i a1 h1 a2 h2 a3 h3 a4 h4 a5 h5 a6 h6 hc0 hc1 x0 x1 x2 x3 xs0 = k0_pay2 xs0 x0 x1 := by
  unfold sout0_C_0
  rw [View.read_writes_eq_canon _ _ _ (scover0_C_0 c i a1 h1 a2 h2 a3 h3 a4 h4 a5 h5 a6 h6 hc0 hc1 x0 x1 x2 x3 xs0)]
  unfold kernelRun0_C
  dsimp only
  sl_unfold_words
  rw [View.canon_unit_zero hz]
  simp only [View.readAt_eq_ld, h1.read_unread, h2.read_unread, h6.read_unread, View.ld_unit_zero (S := S10000x128) hz,
    View.ld_unit_zero (S := S128x128) hz]

/-- and the output block: the accumulator just written, contracted with the weight block, plus the bias row. -/
theorem out_last (c : Dev nD) (i : grid0.Coords) (a1 : Memref sig .tc .vmem S10000x128 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S128x128 .f32) (h5 : a5.IsWhole)
    (a6 : Memref sig .tc .vmem S128x128 .f32) (h6 : a6.IsWhole) (hc0 : ¬cond0_0 i) (hc1 : cond0_1 i)
    (x0 x1 : Vec F S10000x128 .f32) (x2 : Vec F S128x128 .f32) (x3 : Vec F S1x128 .f32) (xs0 : Vec F S128x128 .f32) :
    out0_C_4 c i a1 h1 a2 h2 a3 h3 a4 h4 a5 h5 a6 h6 hc0 hc1 x0 x1 x2 x3 xs0 = k0_pay3 (k0_pay2 xs0 x0 x1) x2 x3 := by
  unfold out0_C_4
  rw [View.read_writes_eq_canon _ _ _ (cover0_C_4 c i a1 h1 a2 h2 a3 h3 a4 h4 a5 h5 a6 h6 hc0 hc1 x0 x1 x2 x3 xs0)]
  unfold kernelRun0_C
  dsimp only
  sl_unfold_words
  rw [View.canon_unit_zero hz, View.readCov_unit_zero (S := S128x128) _ hz]
  simp only [View.readAt_eq_ld, h1.read_unread, h2.read_unread, h3.read_unread, h4.read_unread, h6.read_unread,
    View.ld_unit_zero (S := S10000x128) hz, View.ld_unit_zero (S := S128x128) hz, View.ld_unit_zero (S := S1x128) hz]

end Cert.KernelIdeal.Pieces

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColDot.lean ====
/-
  A matrix product that contracts the FIRST axis of both operands, read at an index.

  The product of a `[K, R]` array with a `[K, C]` array into `[R, C]` that contracts the leading axis of both —
  the transposed left operand times the right operand, `lhsᵀ · rhs` — has the dimension numbers of the record
  `colDot` below, whose side condition is a parameter: any record with the same lists is one of them by unfolding.
  On the extended reals the product into a zero accumulator, read at `(p, q)`, is the sum over `k` of
  `lhs (k, p) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibColDot

open Idealize.ShloMosaic Idealize.ShloMosaic.ValueIdx

/-- The dimension numbers of a `[K, R] × [K, C] → [R, C]` product contracting the leading axis of both operands. -/
abbrev colDot (K R C : Nat)
    (wf : DotDims.WF ⟨2, ![K, R]⟩ ⟨2, ![K, C]⟩ ⟨2, ![R, C]⟩ [0] [0] [1] [1] [] []) :
    DotDims ⟨2, ![K, R]⟩ ⟨2, ![K, C]⟩ ⟨2, ![R, C]⟩ where
  lhsContracting := [0]
  rhsContracting := [0]
  lhsNonContracting := [1]
  rhsNonContracting := [1]
  lhsBatch := []
  rhsBatch := []
  wf := wf

section
variable {K R C : Nat} (wf : DotDims.WF ⟨2, ![K, R]⟩ ⟨2, ![K, C]⟩ ⟨2, ![R, C]⟩ [0] [0] [1] [1] [] [])

/-- The left operand's index for output `(p, q)` and contraction coordinate `k` is `(k, p)`. -/
theorem colDot_lhsIdx (p : Fin R) (q : Fin C) (k : Fin K) :
    (colDot K R C wf).lhsIdx (ix2 p q) ((contrEquiv1 (colDot K R C wf) K rfl rfl).symm k) = ix2 k p := by
  have hk := contrEquiv1_symm_val (colDot K R C wf) K rfl rfl k
  funext a
  refine Fin.ext ?_
  match a with
  | ⟨0, _⟩ =>
    exact ((colDot K R C wf).lhsIdx_val_of_single (cl := (0 : Fin 2)) rfl (ix2 p q) _).trans hk
  | ⟨1, _⟩ =>
    show ((colDot K R C wf).lhsIdx (ix2 p q) ((contrEquiv1 (colDot K R C wf) K rfl rfl).symm k) 1).val = p.val
    unfold DotDims.lhsIdx
    rw [dif_neg (show ¬(1 : Fin 2) ∈ (colDot K R C wf).lhsBatch from List.not_mem_nil),
      dif_pos (show (1 : Fin 2) ∈ (colDot K R C wf).lhsNonContracting from List.mem_singleton.mpr rfl)]
    rfl

/-- The right operand's index for output `(p, q)` and contraction coordinate `k` is `(k, q)`. -/
theorem colDot_rhsIdx (p : Fin R) (q : Fin C) (k : Fin K) :
    (colDot K R C wf).rhsIdx (ix2 p q) ((contrEquiv1 (colDot K R C wf) K rfl rfl).symm k) = ix2 k q := by
  have hk := contrEquiv1_symm_val (colDot K R C wf) K rfl rfl k
  funext a
  refine Fin.ext ?_
  match a with
  | ⟨0, _⟩ =>
    exact ((colDot K R C wf).rhsIdx_val_of_single (cr := (0 : Fin 2)) rfl (ix2 p q) _).trans hk
  | ⟨1, _⟩ =>
    show ((colDot K R C wf).rhsIdx (ix2 p q) ((contrEquiv1 (colDot K R C wf) K rfl rfl).symm k) 1).val = q.val
    unfold DotDims.rhsIdx
    rw [dif_neg (show ¬(1 : Fin 2) ∈ (colDot K R C wf).rhsBatch from List.not_mem_nil),
      dif_pos (show (1 : Fin 2) ∈ (colDot K R C wf).rhsNonContracting from List.mem_singleton.mpr rfl)]
    rfl

/-- THE PRODUCT `lhsᵀ · rhs` INTO A ZERO ACCUMULATOR AT `(p, q)`: the sum over `k` of `lhs (k, p) * rhs (k, q)`. -/
theorem matmul_zero_apply {φ₁ φ₂ : FTy} (prec : Option ContractPrecision)
    (lhs : FVec Ideal ⟨2, ![K, R]⟩ φ₁) (rhs : FVec Ideal ⟨2, ![K, C]⟩ φ₂) (p : Fin R) (q : Fin C) :
    FloatOps.matmul (colDot K R C wf) prec lhs rhs (constant ⟨2, ![R, C]⟩ .f32 0x00000000#32) (ix2 p q)
      = ∑ k : Fin K, lhs (ix2 k p) * rhs (ix2 k q) := by
  rw [Ideal.matmul_constant_zero_apply, ← Equiv.sum_comp (contrEquiv1 (colDot K R C wf) K rfl rfl).symm]
  refine Finset.sum_congr rfl fun k _ => ?_
  rw [colDot_lhsIdx wf p q k, colDot_rhsIdx wf p q k]

end

end Cert.LibColDot

end
-- ==== Proof.Payload.lean ====
/-
  The body's three stored values at an index, on the extended reals.

  * the reset value is `0` everywhere;
  * the accumulator's update at `(p, q)` is the old accumulator's entry plus `∑ r, a (r, p) · b (r, q)` over the 10000
    rows of the two input blocks (the product contracts the ROW axis of both blocks: the block of the transposed
    `adj` against the block of `x`);
  * the output block at `(p, q)` is `∑ j, acc (p, j) · w (j, q)` plus the bias row's entry `q`.
-/
import proofs.«130409_g69896297775420_cont_9to1_m_1307_20_alg».proof.Proof.Gen.KernelIdeal.Skeleton
import proofs.«130409_g69896297775420_cont_9to1_m_1307_20_alg».proof.Proof.LibPlainDot
import proofs.«130409_g69896297775420_cont_9to1_m_1307_20_alg».proof.Proof.LibColDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The reset value: zero at every index. -/
theorem reset_apply (i : S128x128.Idx) : k0_pay1 (F := Ideal) i = 0 := by
  unfold k0_pay1
  rw [shapeCast_self]
  exact Ideal.ofBits_zero_f32

/-- The accumulator's update at `(p, q)`: the old entry plus the block product's. -/
theorem update_apply (acc : FVec Ideal S128x128 .f32) (a b : FVec Ideal S10000x128 .f32) (p q : Fin 128) :
    k0_pay2 (F := Ideal) acc a b (ix2 p q) = acc (ix2 p q) + ∑ r : Fin 10000, a (ix2 r p) * b (ix2 r q) := by
  unfold k0_pay2
  rw [shapeCast_self, shapeCast_self]
  show FloatOps.addf (F := Ideal) (acc (ix2 p q)) (FloatOps.matmul (F := Ideal) dot_S10000x128_S10000x128_S128x128_0_0_1_1_n_n none a b
    (constant (F := Ideal) S128x128 .f32 0x00000000#32) (ix2 p q)) = _
  rw [Ideal.addf_def]
  exact congrArg (acc (ix2 p q) + ·)
    (Cert.LibColDot.matmul_zero_apply (K := 10000) (R := 128) (C := 128)
      Facts₀.dot_S10000x128_S10000x128_S128x128_0_0_1_1_n_n_wf none a b p q)

/-- The output block at `(p, q)`: the accumulator's row `p` against the weight block's column `q`, plus the bias. -/
theorem output_apply (acc w : FVec Ideal S128x128 .f32) (b : FVec Ideal S1x128 .f32) (p q : Fin 128) :
    k0_pay3 (F := Ideal) acc w b (ix2 p q) = (∑ j : Fin 128, acc (ix2 p j) * w (ix2 j q)) + b (ix2 (0 : Fin 1) q) := by
  unfold k0_pay3
  rw [shapeCast_self]
  show FloatOps.addf (F := Ideal) (FloatOps.matmul (F := Ideal) dot_S128x128_S128x128_S128x128_1_0_0_1_n_n none acc w
    (constant (F := Ideal) S128x128 .f32 0x00000000#32) (ix2 p q)) (broadcastTo S128x128 b Facts₀.broadcasts_S1x128_S128x128 (ix2 p q)) = _
  rw [Ideal.addf_def, broadcastTo_1b_ab_apply]
  exact congrArg (· + b (ix2 (0 : Fin 1) q))
    (Cert.LibPlainDot.matmul_zero_apply (R := 128) (K := 128) (C := 128)
      Facts₀.dot_S128x128_S128x128_S128x128_1_0_0_1_n_n_wf none acc w p q)

end Cert.KernelIdeal.Payload

end
-- ==== Proof.Algebra.lean ====
/-
  The arithmetic that joins the two sides, over plain finite index types and the reals.

  The kernel contracts the long axis first, `(adj · x) · w`, block of rows by block of rows; the reference
  contracts the short axis first, `adj · (x · w)`. Over the REALS both are the triple sum of `a n · x n j · w j`
  (distributivity and an exchange of two finite sums); over the extended reals the same holds once every entry is
  a real, because the coercion commutes with finite sums and products. The 100000 rows are read as ten blocks of
  10000 consecutive rows.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring
import Mathlib.Tactic.NormNum

open scoped BigOperators

namespace Cert.GcnAlgebra

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `r` of the `s`-th block of 10000 consecutive rows of a 100000-row array: row `10000 s + r` (reduced
    modulo 100000, so that it is a row for every natural `s`; for the ten blocks `s < 10` nothing is reduced). -/
def row (s : ℕ) (r : Fin 10000) : Fin 100000 := ⟨(10000 * s + r.val) % 100000, Nat.mod_lt _ (by norm_num)⟩

theorem row_val (s : ℕ) (hs : s < 10) (r : Fin 10000) : (row s r).val = 10000 * s + r.val := by
  have := r.isLt
  show (10000 * s + r.val) % 100000 = _
  omega

/-- A sum over the 100000 rows is the sum over the ten blocks of the sums over each block's 10000 rows. -/
theorem sum_blocks {β : Type*} [AddCommMonoid β] (h : Fin 100000 → β) :
    ∑ s ∈ Finset.range 10, ∑ r : Fin 10000, h (row s r) = ∑ n : Fin 100000, h n := by
  rw [Finset.sum_range (fun s => ∑ r : Fin 10000, h (row s r))]
  rw [← Fintype.sum_prod_type' (fun (s : Fin 10) (r : Fin 10000) => h (row s.val r))]
  refine Fintype.sum_equiv (finProdFinEquiv (m := 10) (n := 10000)) _ _ (fun p => ?_)
  refine congrArg h (Fin.ext ?_)
  have h1 := p.1.isLt
  have h2 := p.2.isLt
  rw [row_val _ h1]
  simp only [finProdFinEquiv_apply_val]
  omega

/-- Over the reals: contracting `n` first and then `j` is contracting `j` first and then `n`. -/
theorem reassoc {N J : Type*} [Fintype N] [Fintype J] (a : N → ℝ) (x : N → J → ℝ) (w : J → ℝ) :
    ∑ j, (∑ n, a n * x n j) * w j = ∑ n, a n * ∑ j, x n j * w j := by
  simp only [Finset.sum_mul, Finset.mul_sum]
  rw [Finset.sum_comm]
  exact Finset.sum_congr rfl fun n _ => Finset.sum_congr rfl fun j _ => by ring

/-- THE LAW. For real entries `a` (one row of `adj`), `x` and `w` (one column of `weight`), read as extended
    reals: the kernel's value — the zero accumulator plus the ten block products, then contracted with `w` — is
    the reference's `∑ n, a n · (∑ k, x n k · w k)`. -/
theorem gcn_law (a : Fin 100000 → ℝ) (x : Fin 100000 → Fin 128 → ℝ) (w : Fin 128 → ℝ) :
    ∑ j : Fin 128, ((0 : EReal) + ∑ s ∈ Finset.range 10, ∑ r : Fin 10000, (a (row s r) : EReal) * (x (row s r) j : EReal)) * (w j : EReal)
      = ∑ n : Fin 100000, (a n : EReal) * ∑ k : Fin 128, (x n k : EReal) * (w k : EReal) := by
  have hL : ∀ j : Fin 128, ((0 : EReal) + ∑ s ∈ Finset.range 10, ∑ r : Fin 10000, (a (row s r) : EReal) * (x (row s r) j : EReal)) * (w j : EReal)
      = (((∑ n : Fin 100000, a n * x n j) * w j : ℝ) : EReal) := fun j => by
    rw [zero_add, sum_blocks (fun n => (a n : EReal) * (x n j : EReal)), EReal.coe_mul, coe_sum]
    simp only [EReal.coe_mul]
  have hR : ∀ n : Fin 100000, (a n : EReal) * ∑ k : Fin 128, (x n k : EReal) * (w k : EReal)
      = ((a n * ∑ k : Fin 128, x n k * w k : ℝ) : EReal) := fun n => by
    rw [EReal.coe_mul, coe_sum]
    simp only [EReal.coe_mul]
  rw [Finset.sum_congr rfl (fun j _ => hL j), Finset.sum_congr rfl (fun n _ => hR n), ← coe_sum, ← coe_sum]
  exact congrArg _ (reassoc a x w)

end Cert.GcnAlgebra
-- ==== Proof.Blocks.lean ====
/-
  The four input blocks a grid point sees, entry by entry, as entries of the ARGUMENT arrays.

  Before the kernel is launched the program transposes `adj` (so the kernel streams rows of `adjᵀ`) and gives the
  bias a leading unit axis. At point `t` the kernel sees rows `10000 t … 10000 t + 9999` of `adjᵀ` and of `x`, the
  whole `weight`, and the bias as a one-row array:
    block 0 at (r, p) = adj (p, 10000 t + r)      block 1 at (r, j) = x (10000 t + r, j)
    block 2 at (j, q) = weight (j, q)              block 3 at (0, q) = bias q.
  For any float values.
-/
import proofs.«130409_g69896297775420_cont_9to1_m_1307_20_alg».proof.Proof.Gen.KernelIdeal.Frame
import proofs.«130409_g69896297775420_cont_9to1_m_1307_20_alg».proof.Proof.Algebra
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Cert.GcnAlgebra (row row_val)

namespace Cert.KernelIdeal.Blocks

open Cert.KernelIdeal Cert.KernelIdeal.Gen

variable {F : FTy → Type} [FloatOps F]
variable (m : (ℓ : Loc nD τ sig) → Buf (Elt F) ℓ)

/-- The streamed windows' block index at point `t` is `(t, 0)`; the resident windows' is `(0, 0)`. -/
theorem index_adjT : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_x : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index_w : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_b : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- What the kernel is handed as its first operand: the transpose of `adj`. -/
theorem entry_adjT (c : Dev nD) : (V m c main_call0_v0 : S100000x128.Idx → Elt F .f32)
    = transpose S100000x128 [1, 0] (m ((c : Thread nD τ).loc main_arg1)) Facts₀.transposes_S128x100000_S100000x128_1_0 := by
  dsimp only [V, hostOps0]; after_results; rfl

/-- What the kernel is handed as its last operand: the bias with a leading unit axis. -/
theorem entry_bias (c : Dev nD) : (V m c main_call0_v1 : S1x128.Idx → Elt F .f32)
    = shapeCast S1x128 (m ((c : Thread nD τ).loc main_arg3)) Facts₀.shapeCasts_S128_S1x128 := by
  dsimp only [V, hostOps0]; after_results; rfl

/-- Block 1 at point `t`: rows `10000 t …` of `x`. -/
theorem x_block (c : Dev nD) (t : Fin cfg0.N) (r : Fin 10000) (j : Fin 128) :
    (iblk m c 1 t : Vec F S10000x128 .f32) (ix2 r j) = m ((c : Thread nD τ).loc main_arg0) (ix2 (row t.val r) j) := by
  have ht : t.val < 10 := lt_of_lt_of_eq t.isLt N_0
  unfold iblk
  rw [View.read_apply]
  show V m c main_arg0 _ = _
  rw [V_main_arg0]
  refine congrArg _ (funext fun a => Fin.ext ?_)
  match a with
  | ⟨0, _⟩ => show win0_1.index t 0 * 10000 + 1 * r.val = (row t.val r).val; rw [(index_x t).1, row_val _ ht]; omega
  | ⟨1, _⟩ => show win0_1.index t 1 * 128 + 1 * j.val = j.val; rw [(index_x t).2]; omega

/-- Block 0 at point `t`: rows `10000 t …` of `adjᵀ`, that is columns `10000 t …` of `adj`. -/
theorem adjT_block (c : Dev nD) (t : Fin cfg0.N) (r : Fin 10000) (p : Fin 128) :
    (iblk m c 0 t : Vec F S10000x128 .f32) (ix2 r p) = m ((c : Thread nD τ).loc main_arg1) (ix2 p (row t.val r)) := by
  have ht : t.val < 10 := lt_of_lt_of_eq t.isLt N_0
  unfold iblk
  rw [View.read_apply]
  show (V m c main_call0_v0 : S100000x128.Idx → Elt F .f32) _ = _
  rw [entry_adjT]
  refine transpose_apply _ _ _ _ _ fun b => ?_
  match b with
  | ⟨0, _⟩ => show (row t.val r).val = win0_0.index t 0 * 10000 + 1 * r.val; rw [(index_adjT t).1, row_val _ ht]; omega
  | ⟨1, _⟩ => show p.val = win0_0.index t 1 * 128 + 1 * p.val; rw [(index_adjT t).2]; omega

/-- Block 2 at any point: the whole `weight`. -/
theorem w_block (c : Dev nD) (t : Fin cfg0.N) (j q : Fin 128) :
    (iblk m c 2 t : Vec F S128x128 .f32) (ix2 j q) = m ((c : Thread nD τ).loc main_arg2) (ix2 j q) := by
  unfold iblk
  rw [View.read_apply]
  show V m c main_arg2 _ = _
  rw [V_main_arg2]
  refine congrArg _ (funext fun a => Fin.ext ?_)
  match a with
  | ⟨0, _⟩ => show win0_2.index t 0 * 128 + 1 * j.val = j.val; rw [(index_w t).1]; omega
  | ⟨1, _⟩ => show win0_2.index t 1 * 128 + 1 * q.val = q.val; rw [(index_w t).2]; omega

/-- Block 3 at any point: the bias as a one-row array. -/
theorem bias_block (c : Dev nD) (t : Fin cfg0.N) (q : Fin 128) :
    (iblk m c 3 t : Vec F S1x128 .f32) (ix2 (0 : Fin 1) q) = m ((c : Thread nD τ).loc main_arg3) (ix1 q) := by
  unfold iblk
  rw [View.read_apply]
  show (V m c main_call0_v1 : S1x128.Idx → Elt F .f32) _ = _
  rw [entry_bias]
  refine (congrArg _ (funext fun a => Fin.ext ?_)).trans (shapeCast_a_1a_apply _ _ (0 : Fin 1) q)
  match a with
  | ⟨0, _⟩ => show win0_3.index t 0 * 1 + 1 * 0 = 0; rw [(index_b t).1]
  | ⟨1, _⟩ => show win0_3.index t 1 * 128 + 1 * q.val = q.val; rw [(index_b t).2]; omega

end Cert.KernelIdeal.Blocks

end
-- ==== Proof.Spec.lean ====
/-
  The two sides as functions of the argument arrays, index by index, and the law that joins them.

  With `x : [100000, 128]`, `adj : [128, 100000]`, `w : [128, 128]`, `b : [128]` over the extended reals:

    reference   out (p, q) = (∑ n, adj (p, n) · (∑ k, x (n, k) · w (k, q))) + b q
    kernel      out (p, q) = (∑ j, (0 + ∑ s < 10, ∑ r < 10000, adj (p, 10000 s + r) · x (10000 s + r, j)) · w (j, q)) + b q

  The kernel reassociates `adj · (x · w)` as `(adj · x) · w` and forms `adj · x` in ten row blocks. On the extended
  reals this is NOT an identity (distributivity fails at the infinities), so it is proved for arrays whose entries
  are all real, which is what the certificate's precondition gives for `x`, `adj` and `w`; nothing is asked of `b`.
-/
import Idealize.ShloMosaic.PureOps.Ideal
import Idealize.ShloMosaic.Lib.ValueIdx
import proofs.«130409_g69896297775420_cont_9to1_m_1307_20_alg».proof.Proof.Algebra

noncomputable section

open scoped BigOperators
open Idealize.ShloMosaic Idealize.ShloMosaic.ValueIdx
open Cert.GcnAlgebra (row gcn_law)

namespace Cert.GcnSpec

abbrev SX : Shape := ⟨2, ![100000, 128]⟩
abbrev SA : Shape := ⟨2, ![128, 100000]⟩
abbrev SW : Shape := ⟨2, ![128, 128]⟩
abbrev SB : Shape := ⟨1, ![128]⟩

/-- Row block `s`'s contribution to `(adj · x) (p, j)`: the sum over the block's 10000 rows. -/
def blockProd (adj : SA.Idx → EReal) (x : SX.Idx → EReal) (s : ℕ) (p j : Fin 128) : EReal :=
  ∑ r : Fin 10000, adj (ix2 p (row s r)) * x (ix2 (row s r) j)

/-- The accumulator after the ten blocks: the zero it is reset to plus the ten contributions. -/
def adjX (adj : SA.Idx → EReal) (x : SX.Idx → EReal) (p j : Fin 128) : EReal :=
  0 + ∑ s ∈ Finset.range 10, blockProd adj x s p j

/-- What the kernel computes. -/
def kernelOut (x : SX.Idx → EReal) (adj : SA.Idx → EReal) (w : SW.Idx → EReal) (b : SB.Idx → EReal) : SW.Idx → EReal :=
  fun i => (∑ j : Fin 128, adjX adj x (i 0) j * w (ix2 j (i 1))) + b (ix1 (i 1))

/-- What the reference computes. -/
def refOut (x : SX.Idx → EReal) (adj : SA.Idx → EReal) (w : SW.Idx → EReal) (b : SB.Idx → EReal) : SW.Idx → EReal :=
  fun i => (∑ n : Fin 100000, adj (ix2 (i 0) n) * ∑ k : Fin 128, x (ix2 n k) * w (ix2 k (i 1))) + b (ix1 (i 1))

/-- Every entry of the array is a real number. -/
def AllReal {S : Shape} (v : S.Idx → EReal) : Prop := ∀ i, ∃ r : ℝ, v i = (r : EReal)

/-- THE BRIDGE: for real `x`, `adj` and `w` the kernel's function is the reference's. -/
theorem kernelOut_eq_refOut (x : SX.Idx → EReal) (adj : SA.Idx → EReal) (w : SW.Idx → EReal) (b : SB.Idx → EReal)
    (hx : AllReal x) (hadj : AllReal adj) (hw : AllReal w) : kernelOut x adj w b = refOut x adj w b := by
  choose X hX using hx
  choose A hA using hadj
  choose W hW using hw
  funext i
  unfold kernelOut refOut adjX blockProd
  simp only [hX, hA, hW]
  exact congrArg (· + b (ix1 (i 1)))
    (gcn_law (fun n => A (ix2 (i 0) n)) (fun n k => X (ix2 n k)) (fun k => W (ix2 k (i 1))))

end Cert.GcnSpec

end
-- ==== Proof.KValue.lean ====
/-
  The kernel's result array, as one function of the argument arrays.

  Point by point: the accumulator after point `n` is `0` plus the block products of points `0 … n` (each step adds
  its block's product to what the point before left, and the first point starts from the stored zero), so after the
  last point it is `0 + ∑ s < 10, ∑ r, adj (p, 10000 s + r) · x (10000 s + r, j)` at `(p, j)`. The last point
  alone writes the output block — the accumulator contracted with `weight`, plus the bias row —, that block is the
  whole 128 × 128 result array, and it is written back once, after the last point.
-/
import proofs.«130409_g69896297775420_cont_9to1_m_1307_20_alg».proof.Proof.Gen.KernelIdeal.Value
import proofs.«130409_g69896297775420_cont_9to1_m_1307_20_alg».proof.Proof.Pieces
import proofs.«130409_g69896297775420_cont_9to1_m_1307_20_alg».proof.Proof.Payload
import proofs.«130409_g69896297775420_cont_9to1_m_1307_20_alg».proof.Proof.Blocks
import proofs.«130409_g69896297775420_cont_9to1_m_1307_20_alg».proof.Proof.Spec
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value Cert.GcnSpec

variable (m : (ℓ : Loc nD τ sig) → Buf (Elt Ideal) ℓ) (ρ : Dev nD → PrngReg)

/-- The argument arrays on core `c`, as launched. -/
abbrev argX (c : Dev nD) : SX.Idx → EReal := m ((c : Thread nD τ).loc main_arg0)
abbrev argAdj (c : Dev nD) : SA.Idx → EReal := m ((c : Thread nD τ).loc main_arg1)
abbrev argW (c : Dev nD) : SW.Idx → EReal := m ((c : Thread nD τ).loc main_arg2)
abbrev argB (c : Dev nD) : SB.Idx → EReal := m ((c : Thread nD τ).loc main_arg3)

/-- ONE STEP at point `t`, read at `(p, j)`: the old entry plus block `t`'s product. -/
theorem step_apply (c : Dev nD) (t : Fin cfg0.N) (acc : FVec Ideal S128x128 .f32) (p j : Fin 128) :
    k0_pay2 (F := Ideal) acc (iblk m c 0 t) (iblk m c 1 t) (ix2 p j)
      = acc (ix2 p j) + blockProd (argAdj m c) (argX m c) t.val p j := by
  refine (Payload.update_apply acc (iblk m c 0 t) (iblk m c 1 t) p j).trans ?_
  refine congrArg (acc (ix2 p j) + ·) ?_
  unfold blockProd
  refine Finset.sum_congr rfl fun r _ => ?_
  exact congrArg₂ (· * ·) (Blocks.adjT_block m c t r p) (Blocks.x_block m c t r j)

/-- The first point leaves the stored zero plus block 0's product. -/
theorem first_point (c : Dev nD) (hb : 0 < cfg0.N) (i : S128x128.Idx) :
    scAt0_0 m c 0 hb (VS0_0.read (Elt Ideal) VS0_0.junk) i = 0 + blockProd (argAdj m c) (argX m c) 0 (i 0) (i 1) := by
  obtain ⟨p, j, rfl⟩ : ∃ (p j : Fin 128), i = ix2 p j := ⟨i 0, i 1, eq_ix2 i⟩
  show _ = 0 + blockProd (argAdj m c) (argX m c) 0 p j
  unfold scAt0_0
  rw [dif_pos (Nat.zero_mod 10), dif_neg (by decide)]
  refine (congrFun (Pieces.acc_first (F := Ideal) c (grid0.coords (⟨0, hb⟩ : Fin cfg0.N)) (ms0_0 (⟨0, hb⟩ : Fin cfg0.N)) (hs0_0 (⟨0, hb⟩ : Fin cfg0.N)) (ms0_1 (⟨0, hb⟩ : Fin cfg0.N)) (hs0_1 (⟨0, hb⟩ : Fin cfg0.N)) (ms0_2 (⟨0, hb⟩ : Fin cfg0.N)) (hs0_2 (⟨0, hb⟩ : Fin cfg0.N)) (ms0_3 (⟨0, hb⟩ : Fin cfg0.N)) (hs0_3 (⟨0, hb⟩ : Fin cfg0.N)) (ms0_4 (⟨0, hb⟩ : Fin cfg0.N)) (hs0_4 (⟨0, hb⟩ : Fin cfg0.N)) scM0_0 (Memref.isWhole_whole _) _ _ (iblk m c 0 (⟨0, hb⟩ : Fin cfg0.N)) (iblk m c 1 (⟨0, hb⟩ : Fin cfg0.N)) (iblk m c 2 (⟨0, hb⟩ : Fin cfg0.N)) (iblk m c 3 (⟨0, hb⟩ : Fin cfg0.N))) (ix2 p j)).trans ?_
  refine (step_apply m c ⟨0, hb⟩ (k0_pay1 (F := Ideal)) p j).trans ?_
  rw [Payload.reset_apply]

/-- Every later point adds its block's product to what the point before left. -/
theorem later_point (c : Dev nD) (n : ℕ) (h : n < cfg0.N) (acc : S128x128.Idx → EReal) (i : S128x128.Idx) (hn : 0 < n) :
    scAt0_0 m c n h acc i = acc i + blockProd (argAdj m c) (argX m c) n (i 0) (i 1) := by
  obtain ⟨p, j, rfl⟩ : ∃ (p j : Fin 128), i = ix2 p j := ⟨i 0, i 1, eq_ix2 i⟩
  show _ = acc (ix2 p j) + blockProd (argAdj m c) (argX m c) n p j
  have hN : n < 10 := lt_of_lt_of_eq h N_0
  have h0 : ¬n % 10 = 0 := by omega
  unfold scAt0_0
  rw [dif_neg h0]
  by_cases h1 : n % 10 = 9
  · rw [dif_pos h1]
    refine (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 p j)).trans ?_
    exact step_apply m c ⟨n, h⟩ acc p j
  · rw [dif_neg h1]
    refine (congrFun (Pieces.acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) (ix2 p j)).trans ?_
    exact step_apply m c ⟨n, h⟩ acc p j

/-- THE ACCUMULATOR after point `n`: zero plus the products of blocks `0 … n`. -/
theorem acc_after (c : Dev nD) (n : ℕ) (hn : n < cfg0.N) (p j : Fin 128) :
    (outsAt0 m c n hn).2 (ix2 p j) = 0 + ∑ s ∈ Finset.range (n + 1), blockProd (argAdj m c) (argX m c) s p j := by
  rw [soutsAt0_0_sweep m c n hn]
  have key := Pipeline.accAt_add_apply (N := cfg0.N) (ι := S128x128.Idx) (β := EReal)
    (fun k h => scAt0_0 m c k h (VS0_0.read (Elt Ideal) VS0_0.junk)) (scAt0_0 m c) (fun _ => 0)
    (fun s i => blockProd (argAdj m c) (argX m c) s (i 0) (i 1)) 0 n
    (fun h i => first_point m c h i)
    (fun k h acc i hk _ => later_point m c k h acc i hk) n le_rfl (by omega) (ix2 p j)
  simp only [Nat.zero_add] at key
  exact key

/-- The kernel's result on core `c`. -/
abbrev result (c : Dev nD) : Buf (Elt Ideal) ((c : Thread nD τ).loc main_v0) :=
  kernelOut (argX m c) (argAdj m c) (argW m c) (argB m c)

/-- THE LAST POINT'S OUTPUT BLOCK is the kernel's function of the arguments. -/
theorem out_after_last (c : Dev nD) (h9 : 9 < cfg0.N) : (outsAt0 m c 9 h9).1 = result m c := by
  have e := outsAt0_C m c ⟨9, h9⟩ (show ¬(9 % 10 = 0) by decide) (show 9 % 10 = 9 by decide)
  have e1 : (outsAt0 m c 9 h9).1 = k0_pay3 (F := Ideal) ((outsAt0 m c 9 h9).2) (iblk m c 2 ⟨9, h9⟩) (iblk m c 3 ⟨9, h9⟩) := by
    have a1 := congrArg Prod.fst e
    have a2 := congrArg Prod.snd e
    dsimp only at a1 a2
    rw [a1, a2]
    refine (Pieces.out_last (F := Ideal) c (grid0.coords (⟨9, h9⟩ : Fin cfg0.N)) (ms0_0 (⟨9, h9⟩ : Fin cfg0.N)) (hs0_0 (⟨9, h9⟩ : Fin cfg0.N)) (ms0_1 (⟨9, h9⟩ : Fin cfg0.N)) (hs0_1 (⟨9, h9⟩ : Fin cfg0.N)) (ms0_2 (⟨9, h9⟩ : Fin cfg0.N)) (hs0_2 (⟨9, h9⟩ : Fin cfg0.N)) (ms0_3 (⟨9, h9⟩ : Fin cfg0.N)) (hs0_3 (⟨9, h9⟩ : Fin cfg0.N)) (ms0_4 (⟨9, h9⟩ : Fin cfg0.N)) (hs0_4 (⟨9, h9⟩ : Fin cfg0.N)) scM0_0 (Memref.isWhole_whole _) _ _ (iblk m c 0 (⟨9, h9⟩ : Fin cfg0.N)) (iblk m c 1 (⟨9, h9⟩ : Fin cfg0.N)) (iblk m c 2 (⟨9, h9⟩ : Fin cfg0.N)) (iblk m c 3 (⟨9, h9⟩ : Fin cfg0.N)) _).trans ?_
    exact congrArg (fun v => k0_pay3 (F := Ideal) v (iblk m c 2 ⟨9, h9⟩) (iblk m c 3 ⟨9, h9⟩))
      (Pieces.acc_last (F := Ideal) c (grid0.coords (⟨9, h9⟩ : Fin cfg0.N)) (ms0_0 (⟨9, h9⟩ : Fin cfg0.N)) (hs0_0 (⟨9, h9⟩ : Fin cfg0.N)) (ms0_1 (⟨9, h9⟩ : Fin cfg0.N)) (hs0_1 (⟨9, h9⟩ : Fin cfg0.N)) (ms0_2 (⟨9, h9⟩ : Fin cfg0.N)) (hs0_2 (⟨9, h9⟩ : Fin cfg0.N)) (ms0_3 (⟨9, h9⟩ : Fin cfg0.N)) (hs0_3 (⟨9, h9⟩ : Fin cfg0.N)) (ms0_4 (⟨9, h9⟩ : Fin cfg0.N)) (hs0_4 (⟨9, h9⟩ : Fin cfg0.N)) scM0_0 (Memref.isWhole_whole _) _ _ (iblk m c 0 (⟨9, h9⟩ : Fin cfg0.N)) (iblk m c 1 (⟨9, h9⟩ : Fin cfg0.N)) (iblk m c 2 (⟨9, h9⟩ : Fin cfg0.N)) (iblk m c 3 (⟨9, h9⟩ : Fin cfg0.N)) _).symm
  funext i
  obtain ⟨p, q, rfl⟩ : ∃ (p q : Fin 128), i = ix2 p q := ⟨i 0, i 1, eq_ix2 i⟩
  rw [e1]
  refine (Payload.output_apply ((outsAt0 m c 9 h9).2) (iblk m c 2 ⟨9, h9⟩) (iblk m c 3 ⟨9, h9⟩) p q).trans ?_
  show _ = (∑ j : Fin 128, adjX (argAdj m c) (argX m c) p j * argW m c (ix2 j q)) + argB m c (ix1 q)
  refine congrArg₂ (· + ·) (Finset.sum_congr rfl fun j _ => ?_) (Blocks.bias_block m c ⟨9, h9⟩ q)
  exact congrArg₂ (· * ·) (acc_after m c 9 h9 p j) (Blocks.w_block m c ⟨9, h9⟩ j q)

/-- The one write-back, after the last point, writes the kernel's function: block (0, 0) of the 128 × 128 array is
    the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 10 := N_0
  have h9 : t.val = 9 := by have := (flush0_4 t).mp hf; have := t.isLt; omega
  obtain rfl : t = t0_9 := Fin.ext h9
  show (cfg0.win 4).cut (grid0.coords t0_9) ((dats m 0 c).after 4 t0_9) = _
  rw [after0_4, show (outsAt0 m c t0_9.val t0_9.isLt).1 = result m c from out_after_last m c t0_9.isLt]
  have hz' : (fun a => win0_4.index t0_9 a * main_v0.ty.shape.size a) = fun _ => 0 := funext fun a => by fin_cases a <;> decide
  exact (Memref.read_access_unit_zero (Elt Ideal) main_v0 hz' (fun a => by rw [congrFun hz' a]; simp) (result m c)).symm

/-- So the result array ends holding the kernel's function of the arguments. -/
theorem final (c : Dev nD) : (dats m 0 c).arrAt 4 cfg0.N = result m c :=
  (dats m 0 c).arrAt_eq_of_cover 4 (result m c) (flushed_eq m c) fun i =>
    ⟨t0_9, (flush0_4 t0_9).mpr rfl, by
      show i ∈ ((View.whole main_v0).slice (win0_4.rect t0_9)).set
      rw [View.set_slice_whole, Rect.mem_set_unit]
      intro a
      have h0 : (i 0 : Nat) < 128 := (i 0).isLt
      have h1 : (i 1 : Nat) < 128 := (i 1).isLt
      match a with
      | ⟨0, _⟩ => show win0_4.index t0_9 0 * win0_4.size 0 ≤ (i 0 : Nat) ∧ (i 0 : Nat) < win0_4.index t0_9 0 * win0_4.size 0 + win0_4.xsize (grid0.coords t0_9) 0
                  rw [show win0_4.index t0_9 0 * win0_4.size 0 = 0 from by decide +kernel, show win0_4.xsize (grid0.coords t0_9) 0 = 128 from by decide +kernel]; omega
      | ⟨1, _⟩ => show win0_4.index t0_9 1 * win0_4.size 1 ≤ (i 1 : Nat) ∧ (i 1 : Nat) < win0_4.index t0_9 1 * win0_4.size 1 + win0_4.xsize (grid0.coords t0_9) 1
                  rw [show win0_4.index t0_9 1 * win0_4.size 1 = 0 from by decide +kernel, show win0_4.xsize (grid0.coords t0_9) 1 = 128 from by decide +kernel]; omega⟩

/-- THE KERNEL'S RUN: every weakly fair execution ends with the result array at the kernel's function of the
    arguments and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KValue

end
-- ==== Proof.RefValue.lean ====
/-
  The reference, index by index: `adj · (x · w) + b`.

  Its five operations — the two products, the bias given a leading unit axis, that row repeated down the 128 rows,
  and the sum — read at `(p, q)` are `(∑ n, adj (p, n) · (∑ k, x (n, k) · w (k, q))) + b q`.
-/
import proofs.«130409_g69896297775420_cont_9to1_m_1307_20_alg».proof.Proof.Gen.ReferenceIdeal.Read
import proofs.«130409_g69896297775420_cont_9to1_m_1307_20_alg».proof.Proof.Spec

noncomputable section

open scoped BigOperators
open Idealize.ShloMosaic Idealize.ShloMosaic.ValueIdx

namespace Cert.ReferenceIdeal.RefValue

open Cert.ReferenceIdeal Cert.ReferenceIdeal.Read Cert.GcnSpec

/-- The operand indices of the outer product at output `(p, q)` and contraction position `n`: `(p, n)` and `(n, q)`. -/
theorem outer_lhs (p q : Fin 128) (n : Fin 100000) : lidx_main_v1 (ix2 p q) n = ix2 p n :=
  funext fun a => by match a with | ⟨0, _⟩ => rfl | ⟨1, _⟩ => rfl
theorem outer_rhs (p q : Fin 128) (n : Fin 100000) : ridx_main_v1 (ix2 p q) n = ix2 n q :=
  funext fun a => by match a with | ⟨0, _⟩ => rfl | ⟨1, _⟩ => rfl
/-- The operand indices of the inner product at `(n, q)` and contraction position `k`: `(n, k)` and `(k, q)`. -/
theorem inner_lhs (n : Fin 100000) (q k : Fin 128) : lidx_main_v0 (ix2 n q) k = ix2 n k :=
  funext fun a => by match a with | ⟨0, _⟩ => rfl | ⟨1, _⟩ => rfl
theorem inner_rhs (n : Fin 100000) (q k : Fin 128) : ridx_main_v0 (ix2 n q) k = ix2 k q :=
  funext fun a => by match a with | ⟨0, _⟩ => rfl | ⟨1, _⟩ => rfl
/-- The bias entry read at `(p, q)` is entry `q`. -/
theorem bias_idx (p q : Fin 128) : idx_main_v2 (idx_main_v3 (ix2 p q)) = ix1 q :=
  funext fun a => by match a with | ⟨0, _⟩ => rfl

/-- THE REFERENCE IS ITS SPECIFICATION. -/
theorem ref_eq (x0 : (⟨S100000x128, .f32⟩ : BufTy).Contents (Elt Ideal)) (x1 : (⟨S128x100000, .f32⟩ : BufTy).Contents (Elt Ideal))
    (x2 : (⟨S128x128, .f32⟩ : BufTy).Contents (Elt Ideal)) (x3 : (⟨S128, .f32⟩ : BufTy).Contents (Elt Ideal)) :
    val_main_v4 (F := Ideal) x0 x1 x2 x3 = refOut x0 x1 x2 x3 := by
  funext i
  obtain ⟨p, q, rfl⟩ : ∃ (p q : Fin 128), i = ix2 p q := ⟨i 0, i 1, eq_ix2 i⟩
  show _ = (∑ n : Fin 100000, x1 (ix2 p n) * ∑ k : Fin 128, x0 (ix2 n k) * x2 (ix2 k q)) + x3 (ix1 q)
  rw [val_main_v4_apply, val_main_v1_apply, val_main_v3_apply, val_main_v2_apply, Ideal.addf_def, bias_idx]
  refine congrArg (· + x3 (ix1 q)) (Finset.sum_congr rfl fun n _ => ?_)
  rw [outer_lhs, outer_rhs, val_main_v0_apply]
  refine congrArg (x1 (ix2 p n) * ·) (Finset.sum_congr rfl fun k _ => ?_)
  rw [inner_lhs, inner_rhs]

end Cert.ReferenceIdeal.RefValue

end
-- ==== Proof.Finite.lean ====
/-
  From the precondition to real entries.

  The precondition says, of each float argument, that every entry's absolute value compares below `+∞`, and takes
  the conjunction of the four `all`s. On the extended reals `|v| < +∞` leaves exactly the real numbers: both
  infinities have absolute value `+∞`. So under the precondition every entry of `x`, `adj` and `weight` is a real.
-/
import proofs.«130409_g69896297775420_cont_9to1_m_1307_20_alg».proof.Pre_finite_inputs
import proofs.«130409_g69896297775420_cont_9to1_m_1307_20_alg».proof.Proof.Gen.Pre_finite_inputs
import proofs.«130409_g69896297775420_cont_9to1_m_1307_20_alg».proof.Proof.Spec
import Idealize.ShloMosaic.Lib.ReduceAll
import Idealize.ShloMosaic.Lib.Affine
import Idealize.ShloMosaic.PureOps.Ideal
import Idealize.ShloMosaic.PureOps.Ideal.Laws

noncomputable section

open Idealize.ShloMosaic Idealize.ShloMosaic.ValueIdx

namespace Cert.GcnFinite

open Cert.GcnSpec

/-- The word `0x7F800000` denotes `+∞`. -/
theorem inf_word : Ideal.ofBits .f32 0x7F800000#32 = (⊤ : EReal) := by simp [Ideal.ofBits, Ideal.ieee]

/-- An extended real whose absolute value compares below `+∞` is a real number. -/
theorem real_of_abs_lt_inf (v : EReal)
    (h : Ideal.cmp .olt (max v (-v)) (Ideal.ofBits .f32 0x7F800000#32) = 1#1) : ∃ r : ℝ, v = (r : EReal) := by
  rw [inf_word] at h
  induction v using EReal.rec with
  | bot => exfalso; simp [Ideal.cmp] at h
  | coe r => exact ⟨r, rfl⟩
  | top => exfalso; simp [Ideal.cmp] at h

instance : Subsingleton Cert.Pre_finite_inputs.S_.Idx := ⟨fun a b => funext fun d => d.elim0⟩

/-- Under the precondition `x`, `adj` and `weight` have real entries. -/
theorem allReal_of_pre (x0 : FVec Ideal SX .f32) (x1 : FVec Ideal SA .f32) (x2 : FVec Ideal SW .f32) (x3 : FVec Ideal SB .f32)
    (h : Cert.Pre_finite_inputs.fn (F := Ideal) x0 x1 x2 x3 = fun _ => 1#1) :
    AllReal x0 ∧ AllReal x1 ∧ AllReal x2 := by
  have e := congrFun h ix0
  dsimp only [Cert.Pre_finite_inputs.fn, Cert.Pre_finite_inputs.fn_part1] at e
  obtain ⟨e012, -⟩ := IntOp.andi_eq_one.mp e
  obtain ⟨e01, e2⟩ := IntOp.andi_eq_one.mp e012
  obtain ⟨e0, e1⟩ := IntOp.andi_eq_one.mp e01
  refine ⟨fun i => ?_, fun i => ?_, fun i => ?_⟩
  · exact real_of_abs_lt_inf (x0 i) (Host.reduce_andi_all _ _ _ _ ix0 e0 i)
  · exact real_of_abs_lt_inf (x1 i) (Host.reduce_andi_all _ _ _ _ ix0 e1 i)
  · exact real_of_abs_lt_inf (x2 i) (Host.reduce_andi_all _ _ _ _ ix0 e2 i)

end Cert.GcnFinite

end
-- ==== Proof.lean ====
/-
  Graph convolution `out = adj · (x · weight) + bias` with `x : [100000, 128]`, `adj : [128, 100000]`,
  `weight : [128, 128]`, `bias : [128]`: the kernel against the reference, on the extended reals.

  The reference forms `s = x · weight` (100000 × 128) and then `adj · s + bias`. The kernel uses associativity: it
  forms `adj · x` (128 × 128) first and multiplies by `weight` at the end. It streams the transpose of `adj` and `x`
  in ten blocks of 10000 rows; a 128 × 128 accumulator is set to zero at the first block, receives
  `adjᵀ_blockᵀ · x_block` at every block, and after the last block the output is `accumulator · weight + bias`.

  At `(p, q)`:
    reference   (∑ n, adj (p, n) · (∑ k, x (n, k) · weight (k, q))) + bias q
    kernel      (∑ j, (0 + ∑ s < 10, ∑ r < 10000, adj (p, 10000 s + r) · x (10000 s + r, j)) · weight (j, q)) + bias q

  The two agree by distributivity and an exchange of two finite sums. Distributivity fails at the infinities of the
  extended reals, so this is where the precondition enters: all entries of `x`, `adj` and `weight` are finite, hence
  real, and the identity is the one over the reals (Proof/Algebra.lean, Proof/Spec.lean). The bias is only added at the
  end, on both sides alike, and nothing is needed of it.

  The modules: Proof/Algebra.lean and Proof/Spec.lean (the law and the two functions); Proof/Pieces.lean,
  Proof/Payload.lean, Proof/Blocks.lean and Proof/KValue.lean (the kernel's result array is its function of the
  arguments); Proof/RefValue.lean (the reference's is its function); Proof/Finite.lean (the precondition gives real
  entries). The idealized kernel is the kernel's own text read over the extended reals, so that claim is trivial.
-/
import proofs.«130409_g69896297775420_cont_9to1_m_1307_20_alg».proof.Defs
import proofs.«130409_g69896297775420_cont_9to1_m_1307_20_alg».proof.Proof.Gen.Kernel
import proofs.«130409_g69896297775420_cont_9to1_m_1307_20_alg».proof.Proof.Gen.Kernel.Skeleton
import proofs.«130409_g69896297775420_cont_9to1_m_1307_20_alg».proof.Proof.Gen.Kernel.Launch
import proofs.«130409_g69896297775420_cont_9to1_m_1307_20_alg».proof.Proof.Gen.Kernel.Points
import proofs.«130409_g69896297775420_cont_9to1_m_1307_20_alg».proof.Proof.Gen.Kernel.Frame
import proofs.«130409_g69896297775420_cont_9to1_m_1307_20_alg».proof.Proof.Gen.KernelIdeal
import proofs.«130409_g69896297775420_cont_9to1_m_1307_20_alg».proof.Proof.Gen.KernelIdeal.Skeleton
import proofs.«130409_g69896297775420_cont_9to1_m_1307_20_alg».proof.Proof.Gen.KernelIdeal.Launch
import proofs.«130409_g69896297775420_cont_9to1_m_1307_20_alg».proof.Proof.Gen.KernelIdeal.Points
import proofs.«130409_g69896297775420_cont_9to1_m_1307_20_alg».proof.Proof.Gen.KernelIdeal.Frame
import proofs.«130409_g69896297775420_cont_9to1_m_1307_20_alg».proof.Proof.Gen.ReferenceIdeal
import proofs.«130409_g69896297775420_cont_9to1_m_1307_20_alg».proof.Proof.Gen.Pre_finite_inputs
import proofs.«130409_g69896297775420_cont_9to1_m_1307_20_alg».proof.Proof.Gen.KernelIdeal.Value
import proofs.«130409_g69896297775420_cont_9to1_m_1307_20_alg».proof.Proof.Gen.ReferenceIdeal.Run
import proofs.«130409_g69896297775420_cont_9to1_m_1307_20_alg».proof.Proof.Gen.ReferenceIdeal.Read
import proofs.«130409_g69896297775420_cont_9to1_m_1307_20_alg».proof.Proof.KValue
import proofs.«130409_g69896297775420_cont_9to1_m_1307_20_alg».proof.Proof.RefValue
import proofs.«130409_g69896297775420_cont_9to1_m_1307_20_alg».proof.Proof.Finite
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the arguments, the kernel ends with `(adj · x) · weight + bias` formed block by block
    and the reference with `adj · (x · weight) + bias`; for the finite `x`, `adj`, `weight` the precondition gives,
    these are one array. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2,
    Cert.ReferenceIdeal.Read.val_main_v4_eq, Cert.ReferenceIdeal.RefValue.ref_eq]
  obtain ⟨hx, hadj, hw⟩ := Cert.GcnFinite.allReal_of_pre _ _ _ _ (hpre c)
  exact (Cert.GcnSpec.kernelOut_eq_refOut _ _ _ _ hx hadj hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
